-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x541 : Shape := ⟨2, ![8192, 541]⟩
abbrev S_ : Shape := ⟨0, ![]⟩

class Facts : Prop where
  bcast_S_S8192x541 : S_.BroadcastsInDim S8192x541 (![] : Fin 0 → Fin S8192x541.rank)
  reducesTo_S8192x541_S_d0_1 : S8192x541.ReducesTo [0, 1] S_
  h_S_ : 0 < S_.numel

variable [Facts]

def fn {F : FTy → Type} [FloatOps F] (main_arg0 : FVec F S8192x541 .f32) : IVec S_ 1 :=
  let main_v0 : FVec F S8192x541 .f32 := Host.absf main_arg0
  let main_cst : FVec F S_ .f32 := constant S_ .f32 0x7F800000#32
  let main_v1 : FVec F S8192x541 .f32 := broadcastInDim S8192x541 ![] bcast_S_S8192x541 main_cst
  let main_v2 : IVec S8192x541 1 := cmpf .olt main_v0 main_v1
  let main_c : IVec S_ 1 := constantI S_ 1 1#1
  let main_v3 : IVec S_ 1 := (fun x v => Host.reduce IntOp.andi x v reducesTo_S8192x541_S_d0_1 h_S_) main_v2 main_c
  main_v3
-- ==== Kernel.lean ====
abbrev S8192x541 : Shape := ⟨2, ![8192, 541]⟩
abbrev S8192x14848 : Shape := ⟨2, ![8192, 14848]⟩
abbrev S128x541 : Shape := ⟨2, ![128, 541]⟩
abbrev S128x14848 : Shape := ⟨2, ![128, 14848]⟩
abbrev S128x512 : Shape := ⟨2, ![128, 512]⟩
abbrev S128x29 : Shape := ⟨2, ![128, 29]⟩
abbrev S128x512x1 : Shape := ⟨3, ![128, 512, 1]⟩
abbrev S128x512x29 : Shape := ⟨3, ![128, 512, 29]⟩
abbrev S8192x512x29 : Shape := ⟨3, ![8192, 512, 29]⟩

abbrev nBuf : Space → Nat
  | .hbm => 3
  | .vmem => 4
  | .smem => 0
  | _ => 0

abbrev bufTy : (tb : Table) → Fin (tcTables nBuf tb) → BufTy
  | .hbm, ⟨0, _⟩ => ⟨S8192x541, .f32⟩
  | .hbm, ⟨1, _⟩ => ⟨S8192x14848, .f32⟩
  | .hbm, ⟨2, _⟩ => ⟨S8192x512x29, .f32⟩
  | .local _ .vmem, ⟨0, _⟩ => ⟨S128x541, .f32⟩
  | .local _ .vmem, ⟨1, _⟩ => ⟨S128x541, .f32⟩
  | .local _ .vmem, ⟨2, _⟩ => ⟨S128x14848, .f32⟩
  | .local _ .vmem, ⟨3, _⟩ => ⟨S128x14848, .f32⟩
  | _, _ => ⟨S8192x541, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x541 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x14848 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x541_S128x541_0_0 : ∀ a, (![0, 0] : Fin 2 → Nat) a + S128x541.size a ≤ S128x541.size a
  h_S128x541 : 0 < S128x541.numel
  slices_S128x541_o0_0_S128x512 : S128x541.Slices ![0, 0] S128x512
  slices_S128x541_o0_512_S128x29 : S128x541.Slices ![0, 512] S128x29
  shapeCasts_S128x512_S128x512x1 : S128x512.ShapeCasts S128x512x1
  broadcasts_S128x512x1_S128x512x29 : S128x512x1.Broadcasts S128x512x29
  shapeCasts_S128x512x29_S128x14848 : S128x512x29.ShapeCasts S128x14848
  concatenates_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x29_S128x14848_d1 : Shape.Concatenates (S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: S128x29 :: []) S128x14848 1
  inb_S128x14848_S128x14848_0_0 : ∀ a, (![0, 0] : Fin 2 → Nat) a + S128x14848.size a ≤ S128x14848.size a
  h_S128x14848 : 0 < S128x14848.numel
  shapeCasts_S8192x14848_S8192x512x29 : S8192x14848.ShapeCasts S8192x512x29
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x541.size a ≤ S8192x541.size a
  hwx0_0 : ∀ i : grid0.Coords, EltTy.bits .f32 = 32 ∨ (Rect.block (s := S8192x541) S128x541.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x14848.size a ≤ S8192x14848.size a
  hwx0_1 : ∀ i : grid0.Coords, EltTy.bits .f32 = 32 ∨ (Rect.block (s := S8192x14848) S128x14848.size (cc0_transform_1 i) (hinb0_1 i)).WholeWords (EltTy.packing .f32)

variable [Facts₀]

abbrev win0_0 : Pipeline.Window sig grid0 :=
  Pipeline.Window.ofSpec (Memref.whole main_arg0) S128x541.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x14848.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x541 : Shape := ⟨2, ![8192, 541]⟩
abbrev S8192x512 : Shape := ⟨2, ![8192, 512]⟩
abbrev S8192x29 : Shape := ⟨2, ![8192, 29]⟩
abbrev S8192x512x1 : Shape := ⟨3, ![8192, 512, 1]⟩
abbrev S8192x1x29 : Shape := ⟨3, ![8192, 1, 29]⟩
abbrev S8192x512x29 : Shape := ⟨3, ![8192, 512, 29]⟩

abbrev nBuf : Space → Nat
  | .hbm => 8
  | .vmem => 0
  | .smem => 0
  | _ => 0

abbrev bufTy : (tb : Table) → Fin (tcTables nBuf tb) → BufTy
  | .hbm, ⟨0, _⟩ => ⟨S8192x541, .f32⟩
  | .hbm, ⟨1, _⟩ => ⟨S8192x512, .f32⟩
  | .hbm, ⟨2, _⟩ => ⟨S8192x29, .f32⟩
  | .hbm, ⟨3, _⟩ => ⟨S8192x512x1, .f32⟩
  | .hbm, ⟨4, _⟩ => ⟨S8192x1x29, .f32⟩
  | .hbm, ⟨5, _⟩ => ⟨S8192x512x29, .f32⟩
  | .hbm, ⟨6, _⟩ => ⟨S8192x512x29, .f32⟩
  | .hbm, ⟨7, _⟩ => ⟨S8192x512x29, .f32⟩
  | _, _ => ⟨S8192x541, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]

class Facts₀ : Prop where
  slices_S8192x541_S8192x512_0_0 : S8192x541.Slices ![0, 0] S8192x512
  slices_S8192x541_S8192x29_0_512 : S8192x541.Slices ![0, 512] S8192x29
  bcast_S8192x512_S8192x512x1_0_1 : S8192x512.BroadcastsInDim S8192x512x1 (![0, 1] : Fin 2 → Fin S8192x512x1.rank)
  bcast_S8192x29_S8192x1x29_0_2 : S8192x29.BroadcastsInDim S8192x1x29 (![0, 2] : Fin 2 → Fin S8192x1x29.rank)
  bcast_S8192x512x1_S8192x512x29_0_1_2 : S8192x512x1.BroadcastsInDim S8192x512x29 (![0, 1, 2] : Fin 3 → Fin S8192x512x29.rank)
  bcast_S8192x1x29_S8192x512x29_0_1_2 : S8192x1x29.BroadcastsInDim S8192x512x29 (![0, 1, 2] : Fin 3 → Fin S8192x512x29.rank)

variable [Facts₀]

class Facts : Prop extends Facts₀ where

variable [Facts]
-- ==== Proof.OuterSpec.lean ====
/-
  The specification both programs meet: the per-row outer product.

  A row of the argument has 541 entries: 512 features followed by 29 location entries. The result at
  (b, f, l) is the product of row b's feature f with row b's location entry l:
      outer x (b, f, l) = x (b, f) * x (b, 512 + l).
  A kernel may produce the same numbers as a flat row of 512 * 29 = 14848 entries, entry c = 29 f + l
  holding the product for (f, l); read as a row-major [8192, 512, 29] array that flat array IS `outer x`,
  because position 29 f + l of a row is exactly position (f, l) of a [512, 29] slab (`shapeCast_outerFlat`).
  No arithmetic law is involved: each result entry is one product of the same two factors in the same order,
  so everything here holds at every float instance.
-/
import Idealize.ShloMosaic.PureOps
import Idealize.ShloMosaic.Lib.ValueIdx
import Idealize.ShloMosaic.Lib.Pipeline.Value

noncomputable section

namespace Cert.OuterProduct

open Idealize.ShloMosaic Idealize.ShloMosaic.ValueIdx

variable {F : FTy → Type} [FloatOps F]

/-- The argument: 8192 rows of 512 features and 29 location entries. -/
abbrev Rows : Shape := ⟨2, ![8192, 541]⟩
/-- The result with each row's products laid flat, feature-major. -/
abbrev Flat : Shape := ⟨2, ![8192, 14848]⟩
/-- The result: per row a [512, 29] slab of products. -/
abbrev Cube : Shape := ⟨3, ![8192, 512, 29]⟩

/-- Where feature `f` of row `b` sits in the argument. -/
abbrev featIdx {n : Nat} (b : Fin n) (f : Fin 512) : (⟨2, ![n, 541]⟩ : Shape).Idx := ix2 b ⟨f.val, by omega⟩
/-- Where location entry `l` of row `b` sits in the argument: after the 512 features. -/
abbrev locIdx {n : Nat} (b : Fin n) (l : Fin 29) : (⟨2, ![n, 541]⟩ : Shape).Idx := ix2 b ⟨512 + l.val, by omega⟩

/-- The feature a flat position belongs to: positions 29 f … 29 f + 28 belong to feature f. -/
def featOf (c : Fin 14848) : Fin 512 := ⟨c.val / 29, by have := c.isLt; omega⟩
/-- The location entry a flat position belongs to. -/
def locOf (c : Fin 14848) : Fin 29 := ⟨c.val % 29, Nat.mod_lt _ (by decide)⟩

theorem featOf_eq (c : Fin 14848) (f : Fin 512) (l : Fin 29) (hc : c.val = f.val * 29 + l.val) : featOf c = f :=
  Fin.ext (by show c.val / 29 = f.val; have := l.isLt; omega)
theorem locOf_eq (c : Fin 14848) (f : Fin 512) (l : Fin 29) (hc : c.val = f.val * 29 + l.val) : locOf c = l :=
  Fin.ext (by show c.val % 29 = l.val; have := l.isLt; omega)

/-- THE RESULT: at (b, f, l) the product of row b's feature f and its location entry l. -/
def outer (x : FVec F Rows .f32) : FVec F Cube .f32 := fun i =>
  FloatOps.mulf (x (featIdx (i 0) (i 1))) (x (locIdx (i 0) (i 2)))

/-- The same numbers laid flat: row b, position c holds the product for the feature and location entry c belongs to. -/
def outerFlat (x : FVec F Rows .f32) : FVec F Flat .f32 := fun i =>
  FloatOps.mulf (x (featIdx (i 0) (featOf (i 1)))) (x (locIdx (i 0) (locOf (i 1))))

/-- The flat array at row b, position 29 f + l. -/
theorem outerFlat_apply (x : FVec F Rows .f32) (b : Fin 8192) (c : Fin 14848) (f : Fin 512) (l : Fin 29)
    (hc : c.val = f.val * 29 + l.val) :
    outerFlat x (ix2 b c) = FloatOps.mulf (x (featIdx b f)) (x (locIdx b l)) := by
  show FloatOps.mulf (x (featIdx b (featOf c))) (x (locIdx b (locOf c))) = _
  rw [featOf_eq c f l hc, locOf_eq c f l hc]

/-- Read row-major as [8192, 512, 29], the flat array is the outer product: entry (b, f, l) of the cube is entry
    (b, 29 f + l) of the flat array, the two having one row-major position. -/
theorem shapeCast_outerFlat (x : FVec F Rows .f32) (h : Flat.ShapeCasts Cube) :
    shapeCast Cube (outerFlat x) h = outer x := by
  funext i
  obtain ⟨b, f, l, rfl⟩ : ∃ (b : Fin 8192) (f : Fin 512) (l : Fin 29), i = ix3 b f l := ⟨i 0, i 1, i 2, eq_ix3 i⟩
  have hlt : f.val * 29 + l.val < 14848 := by have := f.isLt; have := l.isLt; omega
  refine (shapeCast_apply (outerFlat x) h (ix3 b f l) (ix2 b ⟨f.val * 29 + l.val, hlt⟩) ?_).trans ?_
  · rw [Shape.rowMajor_val_two, Shape.rowMajor_val_three]
    show b.val * 14848 + (f.val * 29 + l.val) = (b.val * 512 + f.val) * 29 + l.val
    omega
  · exact outerFlat_apply x b ⟨f.val * 29 + l.val, hlt⟩ f l rfl

end Cert.OuterProduct

end
-- ==== Proof.RefOuter.lean ====
/-
  The reference computes the outer product.

  Its program slices the features and the location entries out of the argument, gives each a unit axis,
  broadcasts both to [8192, 512, 29] and multiplies. Read at (b, f, l), the first broadcast chain lands on the
  argument at (b, f), the second at (b, 512 + l), and the product is `outer` of the argument.
-/
import proofs.«113613_j17154099380519_2_alg».proof.Proof.Gen.ReferenceIdeal.Read
import proofs.«113613_j17154099380519_2_alg».proof.Proof.OuterSpec

noncomputable section

namespace Cert.ReferenceIdeal.RefValue

open Idealize.ShloMosaic Idealize.ShloMosaic.ValueIdx
open Cert.ReferenceIdeal Cert.ReferenceIdeal.Read Cert.OuterProduct

variable {F : FTy → Type} [FloatOps F]

/-- The features' chain of layout operations, read at (b, f, l), reads the argument at (b, f). -/
theorem feat_chain (i : S8192x512x29.Idx) : idx_main_v0 (idx_main_v2 (idx_main_v4 i)) = featIdx (i 0) (i 1) :=
  funext fun a => Fin.ext (by match a with | ⟨0, _⟩ => rfl | ⟨1, _⟩ => rfl)

/-- The location entries' chain, read at (b, f, l), reads the argument at (b, 512 + l). -/
theorem loc_chain (i : S8192x512x29.Idx) : idx_main_v1 (idx_main_v3 (idx_main_v5 i)) = locIdx (i 0) (i 2) :=
  funext fun a => Fin.ext (by match a with | ⟨0, _⟩ => rfl | ⟨1, _⟩ => rfl)

/-- The reference's result is the outer product of its argument. -/
theorem result_eq_outer (x0 : (⟨S8192x541, .f32⟩ : BufTy).Contents (Elt F)) :
    val_main_v6 (F := F) x0 = outer (F := F) x0 := by
  funext i
  rw [val_main_v6_apply, val_main_v4_apply, val_main_v2_apply, val_main_v0_apply,
    val_main_v5_apply, val_main_v3_apply, val_main_v1_apply, feat_chain, loc_chain]
  rfl

end Cert.ReferenceIdeal.RefValue

end
-- ==== Proof.Payload.lean ====
/-
  What the kernel's body computes from one block of 128 rows.

  The body slices the block into its 512 feature columns and its 29 location columns. It repeats every feature 29
  times along the row (a unit axis added, broadcast to 29, and the [128, 512, 29] block read flat as [128, 14848]):
  position c of that row holds feature c / 29. It lays 512 copies of the location columns side by side: position c
  holds location entry c % 29. The store is the product of the two, so at row r, position c = 29 f + l, the body
  leaves (feature f of row r) * (location entry l of row r).
-/
import proofs.«113613_j17154099380519_2_alg».proof.Proof.Gen.KernelIdeal.Skeleton
import proofs.«113613_j17154099380519_2_alg».proof.Proof.OuterSpec

set_option maxRecDepth 65536

noncomputable section

namespace Cert.KernelIdeal.Body

open Idealize.ShloMosaic Idealize.ShloMosaic.ValueIdx
open Cert.KernelIdeal Cert.KernelIdeal.Gen Cert.OuterProduct

variable {F : FTy → Type} [FloatOps F]

/-- 512 pieces of 29 columns fill the 14848 columns of a row. -/
theorem copies_fill {α : Type} (p : S128x29.Idx → α) :
    Shape.Concatenates ((List.replicate 512 (⟨S128x29, p⟩ : (s : Shape) × (s.Idx → α))).map (·.1)) S128x14848 1 := by
  rw [List.map_replicate]
  show Shape.Concatenates (List.replicate 512 S128x29) S128x14848 1
  decide

/-- The repeated features: feature c / 29 at position c. -/
def repFeatures (v0 : Vec F S128x541 .f32) : FVec F S128x14848 .f32 :=
  shapeCast S128x14848
    (broadcastTo S128x512x29
      (shapeCast S128x512x1 (extractStridedSlice S128x512 ![0, 0] v0 slices_S128x541_o0_0_S128x512)
        shapeCasts_S128x512_S128x512x1)
      broadcasts_S128x512x1_S128x512x29)
    shapeCasts_S128x512x29_S128x14848

/-- The tiled location entries: 512 copies of the 29 location columns, side by side. -/
def tiledLocation (v0 : Vec F S128x541 .f32) : FVec F S128x14848 .f32 :=
  concatenate S128x14848 1
    (List.replicate 512 ⟨S128x29, extractStridedSlice S128x29 ![0, 512] v0 slices_S128x541_o0_512_S128x29⟩)
    (copies_fill _)

/-- The body's stored value is the product of the two: the printed list of 512 equal pieces is `List.replicate 512`
    of the piece. -/
theorem k0_pay1_eq (v0 : Vec F S128x541 .f32) : k0_pay1 v0 = mulf (repFeatures v0) (tiledLocation v0) := rfl

/-- The repeated features at row r, position 29 f + l: feature f of row r. -/
theorem repFeatures_apply (v0 : Vec F S128x541 .f32) (r : Fin 128) (c : Fin 14848) (f : Fin 512) (l : Fin 29)
    (hc : c.val = f.val * 29 + l.val) : repFeatures v0 (ix2 r c) = v0 (featIdx r f) := by
  unfold repFeatures
  refine (shapeCast_apply _ shapeCasts_S128x512x29_S128x14848 (ix2 r c) (ix3 r f l) ?_).trans ?_
  · rw [Shape.rowMajor_val_three, Shape.rowMajor_val_two]
    show (r.val * 512 + f.val) * 29 + l.val = r.val * 14848 + c.val
    omega
  refine (broadcastTo_apply _ broadcasts_S128x512x1_S128x512x29 (ix3 r f l) (ix3 r f (0 : Fin 1)) (fun a => ?_)).trans ?_
  · match a with
    | ⟨0, _⟩ => show r.val = if (128 : Nat) = 1 then 0 else r.val; rw [if_neg (by decide)]
    | ⟨1, _⟩ => show f.val = if (512 : Nat) = 1 then 0 else f.val; rw [if_neg (by decide)]
    | ⟨2, _⟩ => show 0 = if (1 : Nat) = 1 then 0 else l.val; rw [if_pos rfl]
  refine (shapeCast_apply _ shapeCasts_S128x512_S128x512x1 (ix3 r f (0 : Fin 1)) (ix2 r f) ?_).trans ?_
  · rw [Shape.rowMajor_val_two, Shape.rowMajor_val_three]
    show r.val * 512 + f.val = (r.val * 512 + f.val) * 1 + 0
    omega
  exact extractStridedSlice_apply ![0, 0] v0 slices_S128x541_o0_0_S128x512 (ix2 r f) (featIdx r f) (fun a => by
    match a with
    | ⟨0, _⟩ => show r.val = 0 + r.val; omega
    | ⟨1, _⟩ => show f.val = 0 + f.val; omega)

/-- The tiled location entries at row r, position 29 f + l: location entry l of row r. -/
theorem tiledLocation_apply (v0 : Vec F S128x541 .f32) (r : Fin 128) (c : Fin 14848) (f : Fin 512) (l : Fin 29)
    (hc : c.val = f.val * 29 + l.val) : tiledLocation v0 (ix2 r c) = v0 (locIdx r l) := by
  unfold tiledLocation
  refine (concatenate_replicate_apply (t := S128x14848) (s₁ := S128x29) (1 : Fin 2) 512
    (extractStridedSlice S128x29 ![0, 512] v0 slices_S128x541_o0_512_S128x29) (copies_fill _) rfl
    (ix2 r c) (ix2 r l) ?_ (fun b hb => ?_)).trans ?_
  · show l.val = c.val % 29
    have := l.isLt
    omega
  · match b, hb with
    | ⟨0, _⟩, _ => rfl
    | ⟨1, _⟩, hb => exact absurd rfl hb
  exact extractStridedSlice_apply ![0, 512] v0 slices_S128x541_o0_512_S128x29 (ix2 r l) (locIdx r l) (fun a => by
    match a with
    | ⟨0, _⟩ => show r.val = 0 + r.val; omega
    | ⟨1, _⟩ => show 512 + l.val = 512 + l.val; omega)

/-- THE BODY AT AN ENTRY: at row r, position 29 f + l, the product of the row's feature f and location entry l. -/
theorem k0_pay1_apply (v0 : Vec F S128x541 .f32) (r : Fin 128) (c : Fin 14848) (f : Fin 512) (l : Fin 29)
    (hc : c.val = f.val * 29 + l.val) :
    k0_pay1 v0 (ix2 r c) = FloatOps.mulf (v0 (featIdx r f)) (v0 (locIdx r l)) := by
  rw [k0_pay1_eq]
  show FloatOps.mulf (repFeatures v0 (ix2 r c)) (tiledLocation v0 (ix2 r c)) = _
  rw [repFeatures_apply v0 r c f l hc, tiledLocation_apply v0 r c f l hc]

end Cert.KernelIdeal.Body

end
-- ==== Proof.Blocks.lean ====
/-
  From blocks to the array.

  The grid has 64 points; point t takes rows 128 t … 128 t + 127 of the argument (all 541 columns) and writes rows
  128 t … 128 t + 127 of the flat result (all 14848 columns). What a point writes back is therefore the block of
  `outerFlat` of the WHOLE argument at those rows: the body's entry at block row r, position c, multiplies the block's
  entries (r, c / 29) and (r, 512 + c % 29), which are the argument's entries at array row 128 t + r. The 64 row
  blocks cover the flat result, so after the run it holds `outerFlat` of the argument.
-/
import proofs.«113613_j17154099380519_2_alg».proof.Proof.Gen.KernelIdeal.Frame
import proofs.«113613_j17154099380519_2_alg».proof.Proof.Payload
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.OuterProduct Cert.KernelIdeal.Body

variable {F : FTy → Type} [FloatOps F]
variable (m : (ℓ : Loc nD τ sig) → Buf (Elt F) ℓ)

/-- The body's accesses start at the block's origin. -/
theorem origin : (![0, 0] : Fin 2 → Nat) = fun _ => 0 := funext fun a => by fin_cases a <;> rfl

/-- The body at any entry of the block: the product of the entry's feature and location entry, of its own row. -/
theorem k0_pay1_at (v0 : Vec F S128x541 .f32) (y : S128x14848.Idx) :
    k0_pay1 v0 y = FloatOps.mulf (v0 (featIdx (n := 128) (y 0) (featOf (y 1)))) (v0 (locIdx (n := 128) (y 0) (locOf (y 1)))) := by
  obtain ⟨r, c, rfl⟩ : ∃ (r : Fin 128) (c : Fin 14848), y = ix2 r c := ⟨y 0, y 1, eq_ix2 y⟩
  exact k0_pay1_apply v0 r c (featOf c) (locOf c) (by show c.val = c.val / 29 * 29 + c.val % 29; omega)

/-- The two windows move together down the rows, a block of 128 rows per point, and neither moves along the columns. -/
theorem same_rows : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every one of the 64 row blocks is some point's. -/
theorem every_block : ∀ q : Fin 64, ∃ t : Fin cfg0.N, win0_1.index t = ![q.val, 0] :=
  (by decide +kernel : ∀ q : Fin 64, ∃ t : Fin grid0.N, win0_1.index t = ![q.val, 0])

/-- WHAT POINT `t` WRITES BACK is block `t` of `outerFlat` of the argument as the region finds it. -/
theorem flushed_eq (c : Dev nD) (t : Fin cfg0.N) :
    (dats m 0 c).flushed 1 t = ((cfg0.win 1).blk t).view.read (Elt F) (outerFlat (F := F) (V m c main_arg0)) := by
  show (cfg0.win 1).cut (grid0.coords t) ((dats m 0 c).after 1 t) = _
  rw [after0_1]
  unfold out0_1
  rw [View.canon_unit_zero origin]
  simp only [View.ld_unit_zero (S := S128x541) origin]
  obtain ⟨e0, e1, e2⟩ := same_rows t
  funext j
  refine (k0_pay1_at (iblk m c 0 t) j).trans ?_
  have hF : ((cfg0.win 0).blk t).view.emb (featIdx (n := 128) (j 0) (featOf (j 1)))
      = featIdx (n := 8192) ((((cfg0.win 1).blk t).view.emb j) 0) (featOf ((((cfg0.win 1).blk t).view.emb j) 1)) := by
    funext a; apply Fin.ext
    match a with
    | ⟨0, _⟩ => show win0_0.index t (0 : Fin 2) * 128 + 1 * (j 0).val = win0_1.index t (0 : Fin 2) * 128 + 1 * (j 0).val; omega
    | ⟨1, _⟩ => show win0_0.index t (1 : Fin 2) * 541 + 1 * ((j 1).val / 29) = (win0_1.index t (1 : Fin 2) * 14848 + 1 * (j 1).val) / 29; omega
  have hL : ((cfg0.win 0).blk t).view.emb (locIdx (n := 128) (j 0) (locOf (j 1)))
      = locIdx (n := 8192) ((((cfg0.win 1).blk t).view.emb j) 0) (locOf ((((cfg0.win 1).blk t).view.emb j) 1)) := by
    funext a; apply Fin.ext
    match a with
    | ⟨0, _⟩ => show win0_0.index t (0 : Fin 2) * 128 + 1 * (j 0).val = win0_1.index t (0 : Fin 2) * 128 + 1 * (j 0).val; omega
    | ⟨1, _⟩ => show win0_0.index t (1 : Fin 2) * 541 + 1 * (512 + (j 1).val % 29) = 512 + (win0_1.index t (1 : Fin 2) * 14848 + 1 * (j 1).val) % 29; omega
  show FloatOps.mulf (V m c main_arg0 (((cfg0.win 0).blk t).view.emb (featIdx (n := 128) (j 0) (featOf (j 1)))))
        (V m c main_arg0 (((cfg0.win 0).blk t).view.emb (locIdx (n := 128) (j 0) (locOf (j 1)))))
      = FloatOps.mulf (V m c main_arg0 (featIdx (n := 8192) ((((cfg0.win 1).blk t).view.emb j) 0) (featOf ((((cfg0.win 1).blk t).view.emb j) 1))))
        (V m c main_arg0 (locIdx (n := 8192) ((((cfg0.win 1).blk t).view.emb j) 0) (locOf ((((cfg0.win 1).blk t).view.emb j) 1))))
  rw [hF, hL]

/-- An entry of the flat result is in point `t`'s block iff each coordinate is in the block's range on its axis. -/
theorem mem_block (t : Fin cfg0.N) (i : S8192x14848.Idx) :
    i ∈ ((cfg0.win 1).blk t).view.set ↔ ∀ a : Fin 2, win0_1.index t a * S128x14848.size a ≤ (i a).val ∧ (i a).val < win0_1.index t a * S128x14848.size a + S128x14848.size a := by
  show i ∈ ((View.whole main_v0).slice (win0_1.rect t)).set ↔ _
  rw [View.set_slice_whole, Rect.mem_set_unit]
  exact Iff.rfl

/-- THE COVER: row i of the flat result is written by the point whose block is i / 128. -/
theorem covered (i : S8192x14848.Idx) :
    ∃ t : Fin cfg0.N, (cfg0.win 1).flush t = true ∧ i ∈ ((cfg0.win 1).blk t).view.set := by
  have hi0 : (i 0).val < 8192 := (i 0).isLt
  have hi1 : (i 1).val < 14848 := (i 1).isLt
  obtain ⟨t, ht⟩ := every_block ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 14848 ≤ (i 1).val ∧ (i 1).val < win0_1.index t (1 : Fin 2) * 14848 + 14848; omega

/-- THE FLAT RESULT after the run: `outerFlat` of the argument as the region finds it. -/
theorem final (c : Dev nD) : (dats m 0 c).arrAt 1 cfg0.N = outerFlat (F := F) (V m c main_arg0) :=
  (dats m 0 c).arrAt_eq_of_cover 1 _ (fun t _ => flushed_eq m c t) covered

end Cert.KernelIdeal.Blocks

end
-- ==== Proof.Tail.lean ====
/-
  The whole kernel program: the region, then the host's reshape.

  After the region the flat [8192, 14848] array holds `outerFlat` of the argument (the blocks cover it). The one host
  line that follows reads that array row-major as [8192, 512, 29], and `outerFlat` read so is `outer`
  (`shapeCast_outerFlat`: position 29 f + l of a row is position (f, l) of its slab). So every run of the program
  ends with its result at `outer` of its argument, and the argument unchanged.
-/
import proofs.«113613_j17154099380519_2_alg».proof.Proof.Gen.KernelIdeal.Frame
import proofs.«113613_j17154099380519_2_alg».proof.Proof.Blocks
import Idealize.ShloMosaic.Lib.StableHlo.Run

set_option maxRecDepth 16384

noncomputable section

namespace Cert.KernelIdeal.Whole

open Idealize.ShloMosaic Idealize.ShloMosaic.TcCoe Idealize.ShloMosaic.ValueIdx
open Idealize.SL Idealize.SL.Sem Idealize.ShloMosaic.StableHlo
open Cert.KernelIdeal Cert.KernelIdeal.Gen Cert.OuterProduct Cert.KernelIdeal.Blocks

variable {F : FTy → Type} [FloatOps F]
variable (m : (ℓ : Loc nD τ sig) → Buf (Elt F) ℓ) (ρ : Dev nD → PrngReg)

/-- The flat array as the region leaves it: `outerFlat` of the argument. -/
theorem flat_after (c : Dev nD) :
    Pipeline.withArrays (cfgs 0).spec c (V0 m c) (fun w => (dats m 0 c).arrAt w (cfgs 0).N) (Proc.devRef .tc main_v0)
      = outerFlat (F := F) (m ((c : Thread nD τ).loc main_arg0)) :=
  (Pipeline.withArrays_arr spec0 launch0.win.arr_inj c _ _ 1).trans (final m c)

/-- THE RESULT after the host line that follows the region: the flat array read row-major as [8192, 512, 29] is the
    outer product of the argument. -/
theorem result_eq (c : Dev nD) :
    Pipeline.afterTail₀ cfgs (dats m) 0 (V0 m) [hostOps1] c main_v1
      = outer (F := F) (m ((c : Thread nD τ).loc main_arg0)) := by
  unfold Pipeline.afterTail₀
  show StableHlo.after hostOps1 _ (Proc.devRef .tc main_v1) = _
  after_results
  show shapeCast S8192x512x29
      (Pipeline.withArrays (cfgs 0).spec c (V0 m c) (fun w => (dats m 0 c).arrAt w (cfgs 0).N) (Proc.devRef .tc main_v0))
      shapeCasts_S8192x14848_S8192x512x29 = _
  rw [flat_after m c]
  exact shapeCast_outerFlat _ _

/-- THE RUN: every weakly fair execution of the program terminates with the result at the outer product of the
    argument and the argument unchanged. -/
theorem run : θ_run defs (onTc (τ := τ) (main (F := F))) ⟨m, fun _ => 0, ρ⟩ fun r => ∀ c : Dev nD,
      r.2.mem ((c.tc : Thread nD τ).loc main_v1) = outer (F := F) (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (result_eq m c),
        ((h c).1 0).trans (((dats m 0 c).arrAt_in 0 rfl _).trans ((A_eq m c 0).trans (V_main_arg0 m c)))⟩)
    (run_main m ρ)

end Cert.KernelIdeal.Whole

end
-- ==== Proof.lean ====
/-
  A per-row outer product, computed two ways.

  The argument is an [8192, 541] array: each row holds 512 features followed by 29 location entries. Both programs
  return the [8192, 512, 29] array whose entry (b, f, l) is
        x (b, f) * x (b, 512 + l).

  The reference slices the two parts, broadcasts each to [8192, 512, 29] and multiplies (Proof/RefOuter.lean).
  The kernel works on blocks of 128 rows: it repeats every feature 29 times along the row, lays 512 copies of the
  location entries side by side, and multiplies, so that position 29 f + l of a flat row of 14848 entries holds the
  product for (f, l) (Proof/Payload.lean); the 64 blocks tile the flat [8192, 14848] array (Proof/Blocks.lean), and
  the host then reads it row-major as [8192, 512, 29], where position 29 f + l of a row IS position (f, l)
  (Proof/OuterSpec.lean, Proof/Tail.lean).

  Each result entry is ONE product of the same two factors in the same order on both sides, so the two results are
  equal as extended reals with no arithmetic law at all, and the finiteness of the inputs is never used. Nothing was
  rewritten in idealizing the kernel, so the idealization preserves it trivially; the three frames are the programs'
  runs with the results dropped.
-/
import proofs.«113613_j17154099380519_2_alg».proof.Defs
import proofs.«113613_j17154099380519_2_alg».proof.Proof.Gen.Kernel
import proofs.«113613_j17154099380519_2_alg».proof.Proof.Gen.Kernel.Skeleton
import proofs.«113613_j17154099380519_2_alg».proof.Proof.Gen.Kernel.Launch
import proofs.«113613_j17154099380519_2_alg».proof.Proof.Gen.Kernel.Points
import proofs.«113613_j17154099380519_2_alg».proof.Proof.Gen.Kernel.Frame
import proofs.«113613_j17154099380519_2_alg».proof.Proof.Gen.KernelIdeal
import proofs.«113613_j17154099380519_2_alg».proof.Proof.Gen.KernelIdeal.Skeleton
import proofs.«113613_j17154099380519_2_alg».proof.Proof.Gen.KernelIdeal.Launch
import proofs.«113613_j17154099380519_2_alg».proof.Proof.Gen.KernelIdeal.Points
import proofs.«113613_j17154099380519_2_alg».proof.Proof.Gen.KernelIdeal.Frame
import proofs.«113613_j17154099380519_2_alg».proof.Proof.Gen.ReferenceIdeal
import proofs.«113613_j17154099380519_2_alg».proof.Proof.Gen.Pre_finite_inputs
import proofs.«113613_j17154099380519_2_alg».proof.Proof.Gen.ReferenceIdeal.Run
import proofs.«113613_j17154099380519_2_alg».proof.Proof.Gen.ReferenceIdeal.Read
import proofs.«113613_j17154099380519_2_alg».proof.Proof.OuterSpec
import proofs.«113613_j17154099380519_2_alg».proof.Proof.RefOuter
import proofs.«113613_j17154099380519_2_alg».proof.Proof.Tail
import Idealize.ShloMosaic.Adequacy
import Idealize.ShloMosaic.Init

noncomputable section

namespace Cert.Proof

open Idealize.ShloMosaic Idealize.SL.Sem

/-- The kernel as printed runs and leaves its argument as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- Both idealized programs end with their result at the outer product of the (shared) argument: the kernel's by
    its run through the region and the reshape, the reference's by its run read one operation at a time. -/
theorem algebraic : Cert.algebraic_KernelIdeal_ReferenceIdeal := by
  intro m ρ m' ρ' _ hagree
  refine ⟨fun c => Cert.OuterProduct.outer (F := Ideal)
      (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.result_eq_outer, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
